-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn_part1 {F : FTy → Type} [FloatOps F] (main_arg4 : FVec F S2x16x2048x128 .f32) (main_v13 : IVec S_ 1) (main_v16 : IVec S2x16x2048x128 1) : IVec S_ 1 :=
  let main_c_5 : IVec S_ 1 := constantI S_ 1 1#1
  let main_v17 : IVec S_ 1 := (fun x v => Host.reduce IntOp.andi x v reducesTo_S2x16x2048x128_S_d0_1_2_3 h_S_) main_v16 main_c_5
  let main_v18 : IVec S_ 1 := andi main_v13 main_v17
  let main_v19 : FVec F S2x16x2048x128 .f32 := Host.absf main_arg4
  let main_cst_6 : FVec F S_ .f32 := constant S_ .f32 0x7F800000#32
  let main_v20 : FVec F S2x16x2048x128 .f32 := broadcastInDim S2x16x2048x128 ![] bcast_S_S2x16x2048x128 main_cst_6
  let main_v21 : IVec S2x16x2048x128 1 := cmpf .olt main_v19 main_v20
  let main_c_7 : IVec S_ 1 := constantI S_ 1 1#1
  let main_v22 : IVec S_ 1 := (fun x v => Host.reduce IntOp.andi x v reducesTo_S2x16x2048x128_S_d0_1_2_3 h_S_) main_v21 main_c_7
  let main_v23 : IVec S_ 1 := andi main_v18 main_v22
  main_v23

def fn {F : FTy → Type} [FloatOps F] (main_arg0 : FVec F S2x16x2048x128 .f32) (main_arg1 : FVec F S2x16x2048x128 .f32) (main_arg2 : FVec F S2x16x2048x128 .f32) (main_arg3 : FVec F S2x16x2048x128 .f32) (main_arg4 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  let main_v14 : FVec F S2x16x2048x128 .f32 := Host.absf main_arg3
  let main_cst_4 : FVec F S_ .f32 := constant S_ .f32 0x7F800000#32
  let main_v15 : FVec F S2x16x2048x128 .f32 := broadcastInDim S2x16x2048x128 ![] bcast_S_S2x16x2048x128 main_cst_4
  let main_v16 : IVec S2x16x2048x128 1 := cmpf .olt main_v14 main_v15
  fn_part1 (F := F) main_arg4 main_v13 main_v16
-- ==== Kernel.lean ====
abbrev S2x16x2048x128 : Shape := ⟨4, ![2, 16, 2048, 128]⟩
abbrev S32x2048x128 : Shape := ⟨3, ![32, 2048, 128]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .hbm, ⟨4, _⟩ => ⟨S2x16x2048x128, .f32⟩
  | .hbm, ⟨5, _⟩ => ⟨S32x2048x128, .f32⟩
  | .hbm, ⟨6, _⟩ => ⟨S32x2048x128, .f32⟩
  | .hbm, ⟨7, _⟩ => ⟨S32x2048x128, .f32⟩
  | .hbm, ⟨8, _⟩ => ⟨S32x2048x128, .f32⟩
  | .hbm, ⟨9, _⟩ => ⟨S32x2048x128, .f32⟩
  | .hbm, ⟨10, _⟩ => ⟨S32x2048x128, .f32⟩
  | .hbm, ⟨11, _⟩ => ⟨S2x16x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x512x128, .f32⟩
  | .local _ .vmem, ⟨11, _⟩ => ⟨S1x512x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x128_S32x2048x128 : S2x16x2048x128.ShapeCasts S32x2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  shapeCasts_S32x2048x128_S2x16x2048x128 : S32x2048x128.ShapeCasts S2x16x2048x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x2048x128.size a
  hwx0_0 : ∀ i : grid0.Coords, EltTy.bits .f32 = 32 ∨ (Rect.block (s := S32x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S32x2048x128.size a
  hwx0_1 : ∀ i : grid0.Coords, EltTy.bits .f32 = 32 ∨ (Rect.block (s := S32x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S32x2048x128.size a
  hwx0_3 : ∀ i : grid0.Coords, EltTy.bits .f32 = 32 ∨ (Rect.block (s := S32x2048x128) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S32x2048x128.size a
  hwx0_4 : ∀ i : grid0.Coords, EltTy.bits .f32 = 32 ∨ (Rect.block (s := S32x2048x128) S1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S32x2048x128.size a
  hwx0_5 : ∀ i : grid0.Coords, EltTy.bits .f32 = 32 ∨ (Rect.block (s := S32x2048x128) S1x512x128.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .hbm, ⟨4, _⟩ => ⟨S2x16x2048x128, .f32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S_, .f32⟩
  | .hbm, ⟨30, _⟩ => ⟨S2x16x2048, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Spec.lean ====
/-
  Differential attention, row by row, on the extended reals.

  For one query row `q` (128 features) against 2048 key rows, the score of key `u` is the dot product of the two rows
  times the scale word; the row's softmax subtracts the row's top score (the larger of the floor word, which denotes -∞,
  and the running maximum started from it), exponentiates, and divides by the sum of the exponentials. The output row is
  the sum over the keys of (softmax of the scores − λ · softmax of the differential scores) times the value row.
  The three constants stay the float words both programs carry; nothing below evaluates them.
-/
import Idealize.ShloMosaic.PureOps.Ideal.Laws
import Idealize.ShloMosaic.Lib.ValueIdx

noncomputable section

open scoped BigOperators

namespace Cert.DiffAttn

open Idealize.ShloMosaic Idealize.ShloMosaic.ValueIdx

/-- The score scale (the f32 nearest 1/√128), as its word. -/
abbrev scale : EReal := Ideal.ofBits .f32 0x3DB504F3#32
/-- The value a row maximum starts from (the word of -∞). -/
abbrev floorVal : EReal := Ideal.ofBits .f32 0xFF800000#32
/-- The weight λ of the differential term (the word of 0.5). -/
abbrev lam : EReal := Ideal.ofBits .f32 0x3F000000#32

/-- The scaled dot product of a query row and a key row. -/
def score (q k : Fin 128 → EReal) : EReal := (∑ d : Fin 128, q d * k d) * scale

/-- The value subtracted from a row of scores before exponentiating: the floor against the row's maximum from the floor. -/
def rowTop (s : Fin 2048 → EReal) : EReal :=
  max floorVal ((Finset.univ : Finset (Fin 2048)).fold max floorVal s)

/-- The softmax of a row of scores at key `t`. -/
def soft (s : Fin 2048 → EReal) (t : Fin 2048) : EReal :=
  Ideal.div (Ideal.exp (s t - rowTop s)) (∑ u : Fin 2048, Ideal.exp (s u - rowTop s))

/-- One output entry: feature `j` of the row attending with query rows `q`, `dq` over keys `K`, `dK` and values `V`. -/
def attnOut (q dq : Fin 128 → EReal) (K dK V : Fin 2048 → Fin 128 → EReal) (j : Fin 128) : EReal :=
  ∑ t : Fin 2048, (soft (fun u => score q (K u)) t - lam * soft (fun u => score dq (dK u)) t) * V t j

/-- The whole result over [batch, head, position, feature] from the five argument arrays. -/
def result (Q K V dQ dK : (⟨4, ![2, 16, 2048, 128]⟩ : Shape).Idx → EReal) :
    (⟨4, ![2, 16, 2048, 128]⟩ : Shape).Idx → EReal := fun i =>
  attnOut (fun d => Q (ix4 (i 0) (i 1) (i 2) d)) (fun d => dQ (ix4 (i 0) (i 1) (i 2) d))
    (fun u d => K (ix4 (i 0) (i 1) u d)) (fun u d => dK (ix4 (i 0) (i 1) u d)) (fun u d => V (ix4 (i 0) (i 1) u d)) (i 3)

end Cert.DiffAttn

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibMatmulT.lean ====
/-
  A matrix product into a zero accumulator whose right operand is stored row per output column (both operands contracted
  on their second axis: out = L · Rᵀ), read at an index as a plain sum of products over the contracted axis.

  For an n-by-K left operand and an M-by-K right operand, the entry at (p, q) is Σₖ L(p, k) · R(q, k). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulT

open Idealize.ShloMosaic Idealize.ShloMosaic.ValueIdx

/-- A kernel's matrix product L · Rᵀ into the zero splat, at the ideal values, read at `(p, q)`: the sum over the
    contracted axis of the left operand's row `p` times the right operand's row `q`. -/
theorem matmul_zero_ix2_t {n K M : ℕ} {φ₁ φ₂ : FTy}
    (d : DotDims (⟨2, ![n, K]⟩ : Shape) (⟨2, ![M, K]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (j 1).val) (hr1 : ∀ j c, (d.rhsIdx j c 1).val = (c ⟨0, by omega⟩).val)
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lib.MatmulT

end
-- ==== Proof.BlockScores.lean ====
/-
  The kernel body's two matrix products read at an index.

  A block arrives as a [1, rows, 128] array and is viewed [rows, 128]; the narrowing to bf16 is the identity on the extended
  reals. The first two products contract the 128 features of a query row with those of a key row (the right operand is
  stored one key per row), so entry (p, t) of the score block is the scaled dot product of query row p and key row t.
-/
import proofs.«156172_j9637906612422_1_alg».proof.Proof.Gen.KernelIdeal.Skeleton
import proofs.«156172_j9637906612422_1_alg».proof.Proof.Spec
import proofs.«156172_j9637906612422_1_alg».proof.Proof.LibMatmul
import proofs.«156172_j9637906612422_1_alg».proof.Proof.LibMatmulT
import Idealize.ShloMosaic.Lib.Pipeline.Value

noncomputable section

open scoped BigOperators

namespace Cert.KernelIdeal.Block

open Idealize.ShloMosaic Idealize.ShloMosaic.ValueIdx Cert.KernelIdeal Cert.KernelIdeal.Gen Cert.DiffAttn

/-- A [1, a, b] block viewed as [a, b] reads (p, d) at (0, p, d): the same row-major position. -/
theorem cast_rows {α : Type} {a b : ℕ} (x : (⟨3, ![1, a, b]⟩ : Shape).Idx → α)
    (h : (⟨3, ![1, a, b]⟩ : Shape).ShapeCasts ⟨2, ![a, b]⟩) (p : Fin a) (d : Fin b) :
    shapeCast ⟨2, ![a, b]⟩ x h (ix2 p d) = x (ix3 (0 : Fin 1) p d) :=
  shapeCast_apply x h _ _ (by
    rw [Shape.rowMajor_val_three, Shape.rowMajor_val_two]
    show ((0 : ℕ) * a + p.val) * b + d.val = p.val * b + d.val
    rw [Nat.zero_mul, Nat.zero_add])

/-- An [a, b] array stored as a [1, a, b] block reads (u, p, d) at (p, d). -/
theorem cast_block {α : Type} {a b : ℕ} (v : (⟨2, ![a, b]⟩ : Shape).Idx → α)
    (h : (⟨2, ![a, b]⟩ : Shape).ShapeCasts ⟨3, ![1, a, b]⟩) (u : Fin 1) (p : Fin a) (d : Fin b) :
    shapeCast ⟨3, ![1, a, b]⟩ v h (ix3 u p d) = v (ix2 p d) :=
  shapeCast_apply v h _ _ (by
    have hu : u.val = 0 := by omega
    rw [Shape.rowMajor_val_three, Shape.rowMajor_val_two]
    show p.val * b + d.val = (u.val * a + p.val) * b + d.val
    rw [hu, Nat.zero_mul, Nat.zero_add])

/-! ## Which coordinate of each operand a product's output and contraction indices supply -/

local notation "DQK" => dot_S512x128_S2048x128_S512x2048_1_1_0_0_n_n
local notation "DAV" => dot_S512x2048_S2048x128_S512x128_1_0_0_1_n_n

theorem qk_l0 (j : S512x2048.Idx) (c : (DQK).contr.Idx) : ((DQK).lhsIdx j c 0).val = (j 0).val := by
  unfold DotDims.lhsIdx
  rw [dif_neg (show ¬(0 : Fin S512x128.rank) ∈ (DQK).lhsBatch by decide), dif_pos (show (0 : Fin S512x128.rank) ∈ (DQK).lhsNonContracting by decide)]
  rfl
theorem qk_l1 (j : S512x2048.Idx) (c : (DQK).contr.Idx) : ((DQK).lhsIdx j c 1).val = (c ⟨0, by decide⟩).val :=
  (DQK).lhsIdx_val_of_single rfl j c
theorem qk_r0 (j : S512x2048.Idx) (c : (DQK).contr.Idx) : ((DQK).rhsIdx j c 0).val = (j 1).val := by
  unfold DotDims.rhsIdx
  rw [dif_neg (show ¬(0 : Fin S2048x128.rank) ∈ (DQK).rhsBatch by decide), dif_pos (show (0 : Fin S2048x128.rank) ∈ (DQK).rhsNonContracting by decide)]
  rfl
theorem qk_r1 (j : S512x2048.Idx) (c : (DQK).contr.Idx) : ((DQK).rhsIdx j c 1).val = (c ⟨0, by decide⟩).val :=
  (DQK).rhsIdx_val_of_single rfl j c

theorem av_l0 (j : S512x128.Idx) (c : (DAV).contr.Idx) : ((DAV).lhsIdx j c 0).val = (j 0).val := by
  unfold DotDims.lhsIdx
  rw [dif_neg (show ¬(0 : Fin S512x2048.rank) ∈ (DAV).lhsBatch by decide), dif_pos (show (0 : Fin S512x2048.rank) ∈ (DAV).lhsNonContracting by decide)]
  rfl
theorem av_l1 (j : S512x128.Idx) (c : (DAV).contr.Idx) : ((DAV).lhsIdx j c 1).val = (c ⟨0, by decide⟩).val :=
  (DAV).lhsIdx_val_of_single rfl j c
theorem av_r0 (j : S512x128.Idx) (c : (DAV).contr.Idx) : ((DAV).rhsIdx j c 0).val = (c ⟨0, by decide⟩).val :=
  (DAV).rhsIdx_val_of_single rfl j c
theorem av_r1 (j : S512x128.Idx) (c : (DAV).contr.Idx) : ((DAV).rhsIdx j c 1).val = (j 1).val := by
  unfold DotDims.rhsIdx
  rw [dif_neg (show ¬(1 : Fin S2048x128.rank) ∈ (DAV).rhsBatch by decide), dif_pos (show (1 : Fin S2048x128.rank) ∈ (DAV).rhsNonContracting by decide)]
  rfl

/-- Entry (p, t) of a score block: the scaled dot product of query row p and key row t. -/
theorem pay3_apply (x : Vec Ideal S1x512x128 .f32) (y : Vec Ideal S1x2048x128 .f32) (p : Fin 512) (t : Fin 2048) :
    k0_pay3 (F := Ideal) x y (ix2 p t)
      = score (fun d => x (ix3 (0 : Fin 1) p d)) (fun d => y (ix3 (0 : Fin 1) t d)) := by
  unfold k0_pay3 score
  refine congrArg (· * scale) ?_
  refine (Cert.Lib.MatmulT.matmul_zero_ix2_t DQK none rfl rfl qk_l0 qk_l1 qk_r0 qk_r1 _ _ p t).trans ?_
  refine Finset.sum_congr rfl fun k _ => ?_
  show shapeCast S512x128 x _ (ix2 p k) * shapeCast S2048x128 y _ (ix2 t k) = _
  rw [cast_rows, cast_rows]

end Cert.KernelIdeal.Block

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.BlockSoftmax.lean ====
/-
  The kernel body's row softmax read at an index.

  For a [512, 2048] block of scores the body takes each row's maximum from the floor, keeps it as a column, spreads the column
  back over the row, subtracts, exponentiates, sums each row of exponentials, spreads that sum the same way and divides.
  At entry (p, t) this is the softmax of row p at key t.
-/
import proofs.«156172_j9637906612422_1_alg».proof.Proof.Gen.KernelIdeal.Skeleton
import proofs.«156172_j9637906612422_1_alg».proof.Proof.Spec
import proofs.«156172_j9637906612422_1_alg».proof.Proof.LibColumn
import Idealize.ShloMosaic.Lib.Pipeline.Value

noncomputable section

open scoped BigOperators

namespace Cert.KernelIdeal.Block

open Idealize.ShloMosaic Idealize.ShloMosaic.ValueIdx Cert.KernelIdeal Cert.KernelIdeal.Gen Cert.DiffAttn

/-- Each row's top: the floor against the row's maximum taken from the floor. -/
def rowTopV (s : FVec Ideal S512x2048 .f32) : FVec Ideal S512 .f32 :=
  maximumf (broadcast S512 (Scalar.ofBits (F := Ideal) .f32 0xFF800000#32))
    (multiReduction .maximumf [1] S512 s 0xFF800000#32 reduces_S512x2048_S512 (.inl rfl) rfl)

/-- The scores shifted by a per-row value and exponentiated. -/
def expShiftV (s : FVec Ideal S512x2048 .f32) (mx : FVec Ideal S512 .f32) : FVec Ideal S512x2048 .f32 :=
  exp (subf s (broadcastTo S512x2048 (shapeCast S512x1 mx shapeCasts_S512_S512x1) broadcasts_S512x1_S512x2048))

/-- The exponentials divided by their row sums. -/
def softV (s : FVec Ideal S512x2048 .f32) (mx : FVec Ideal S512 .f32) : FVec Ideal S512x2048 .f32 :=
  divf (expShiftV s mx)
    (broadcastTo S512x2048 (shapeCast S512x1
      (multiReduction .add [1] S512 (expShiftV s mx) 0x00000000#32 reduces_S512x2048_S512 (.inl rfl) rfl)
      shapeCasts_S512_S512x1) broadcasts_S512x1_S512x2048)

/-- The entry the row reduction inserts coordinate `t` at: (p, t). -/
theorem lift_row (p : Fin 512) (t : Fin 2048) :
    reduces_S512x2048_S512.lift (ix1 p) t = ix2 p t :=
  funext fun a => Fin.ext (by match a with | ⟨0, _⟩ => rfl | ⟨1, _⟩ => rfl)

/-- Exponentiation acts entry by entry. -/
theorem exp_apply {s : Shape} {φ : FTy} (a : FVec Ideal s φ) (i : s.Idx) : exp a i = Ideal.exp (a i) := rfl

/-- A row's maximum from the floor, as the fold of `max` over the row's 2048 entries. -/
theorem rowMax_apply (s : FVec Ideal S512x2048 .f32) (p : Fin 512) :
    multiReduction .maximumf [1] S512 s 0xFF800000#32 reduces_S512x2048_S512 (.inl rfl) rfl (ix1 p)
      = (Finset.univ : Finset (Fin 2048)).fold max floorVal (fun t => s (ix2 p t)) := by
  refine (Ideal.multiReduction_maximumf_single s _ reduces_S512x2048_S512 _ _ (ix1 p)).trans ?_
  exact congrArg (Finset.fold max floorVal · (Finset.univ : Finset (Fin 2048)))
    (funext fun t => congrArg s (lift_row p t))

theorem rowTopV_apply (s : FVec Ideal S512x2048 .f32) (p : Fin 512) :
    rowTopV s (ix1 p) = rowTop (fun t => s (ix2 p t)) := by
  unfold rowTopV rowTop
  rw [maximumf_apply, broadcast_apply, rowMax_apply]
  rfl

theorem expShiftV_apply (s : FVec Ideal S512x2048 .f32) (mx : FVec Ideal S512 .f32) (p : Fin 512) (t : Fin 2048) :
    expShiftV s mx (ix2 p t) = Ideal.exp (s (ix2 p t) - mx (ix1 p)) := by
  unfold expShiftV
  rw [exp_apply, subf_apply, Cert.Lib.Column.broadcastTo_a1_ab_apply, Cert.Lib.Column.shapeCast_a_a1_apply]

/-- A row's sum of shifted exponentials. -/
theorem rowSum_apply (e : FVec Ideal S512x2048 .f32) (p : Fin 512) :
    multiReduction .add [1] S512 e 0x00000000#32 reduces_S512x2048_S512 (.inl rfl) rfl (ix1 p)
      = ∑ u : Fin 2048, e (ix2 p u) := by
  refine (Ideal.multiReduction_add_single e _ reduces_S512x2048_S512 _ _ (ix1 p)).trans ?_
  exact Finset.sum_congr rfl fun u _ => congrArg e (lift_row p u)

theorem softV_apply (s : FVec Ideal S512x2048 .f32) (mx : FVec Ideal S512 .f32) (p : Fin 512) (t : Fin 2048) :
    softV s mx (ix2 p t)
      = Ideal.div (Ideal.exp (s (ix2 p t) - mx (ix1 p))) (∑ u : Fin 2048, Ideal.exp (s (ix2 p u) - mx (ix1 p))) := by
  unfold softV
  rw [divf_apply, Cert.Lib.Column.broadcastTo_a1_ab_apply, Cert.Lib.Column.shapeCast_a_a1_apply, rowSum_apply,
    expShiftV_apply]
  exact congrArg (Ideal.div _) (Finset.sum_congr rfl fun u _ => expShiftV_apply s mx p u)

/-- The softmax of a block of scores, at (p, t): the softmax of row p at key t. -/
theorem soft_apply (s : FVec Ideal S512x2048 .f32) (p : Fin 512) (t : Fin 2048) :
    softV s (rowTopV s) (ix2 p t) = soft (fun u => s (ix2 p u)) t := by
  rw [softV_apply, rowTopV_apply]
  rfl

end Cert.KernelIdeal.Block

end
-- ==== Proof.BlockOut.lean ====
/-
  One grid point's output block, read at an index.

  From the five input blocks of a point — query rows and differential query rows (512 of them), keys, differential keys
  and values (all 2048) — the body forms both score blocks, both softmaxes, the combination softmax − λ · differential softmax,
  and its product with the values. Entry (p, j) of the stored block is therefore the differential-attention output of
  query row p at feature j.
-/
import proofs.«156172_j9637906612422_1_alg».proof.Proof.BlockScores
import proofs.«156172_j9637906612422_1_alg».proof.Proof.BlockSoftmax

noncomputable section

open scoped BigOperators

namespace Cert.KernelIdeal.Block

open Idealize.ShloMosaic Idealize.ShloMosaic.ValueIdx Cert.KernelIdeal Cert.KernelIdeal.Gen Cert.DiffAttn

/-- The softmax payload is the row softmax of the score payload. -/
theorem pay4_eq (x : Vec Ideal S1x512x128 .f32) (y : Vec Ideal S1x2048x128 .f32) :
    k0_pay4 (F := Ideal) x y = softV (k0_pay3 x y) (rowTopV (k0_pay3 x y)) := rfl

/-- The differential scores' row tops, from the two payloads that carry them. -/
theorem top_eq (x : Vec Ideal S1x512x128 .f32) (y : Vec Ideal S1x2048x128 .f32) :
    maximumf (k0_pay6 (F := Ideal)) (k0_pay5 x y) = rowTopV (k0_pay3 x y) := rfl

/-- The stored payload: the combination of the two softmaxes times the values, kept as a [1, 512, 128] block. -/
theorem pay1_eq (v14 : FVec Ideal S2048x128 .bf16) (v20 v31 : FVec Ideal S512x2048 .f32) (v32 v33 : FVec Ideal S512 .f32) :
    k0_pay1 v14 v20 v31 v32 v33
      = shapeCast S1x512x128
          (matmul dot_S512x2048_S2048x128_S512x128_1_0_0_1_n_n none
            (truncf .bf16 (subf v31 (mulf (broadcast S512x2048 (Scalar.ofBits (F := Ideal) .f32 0x3F000000#32))
              (softV v20 (maximumf v33 v32)))) bitsLt_bf16_f32)
            v14 (constant S512x128 .f32 0x00000000#32))
          shapeCasts_S512x128_S1x512x128 := rfl

/-- The value block viewed [2048, 128]. -/
theorem pay2_apply (x : Vec Ideal S1x2048x128 .f32) (t : Fin 2048) (j : Fin 128) :
    k0_pay2 (F := Ideal) x (ix2 t j) = x (ix3 (0 : Fin 1) t j) := by
  unfold k0_pay2
  rw [truncf_apply, cast_rows]

/-- Entry (p, j) of the block a point stores. -/
theorem out_apply (x0 x1 : Vec Ideal S1x512x128 .f32) (x2 x3 x4 : Vec Ideal S1x2048x128 .f32)
    (u : Fin 1) (p : Fin 512) (j : Fin 128) :
    k0_pay1 (k0_pay2 x4) (k0_pay3 x1 x3) (k0_pay4 x0 x2) (k0_pay5 x1 x3) (k0_pay6 (F := Ideal)) (ix3 u p j)
      = attnOut (fun d => x0 (ix3 (0 : Fin 1) p d)) (fun d => x1 (ix3 (0 : Fin 1) p d))
          (fun t d => x2 (ix3 (0 : Fin 1) t d)) (fun t d => x3 (ix3 (0 : Fin 1) t d))
          (fun t d => x4 (ix3 (0 : Fin 1) t d)) j := by
  rw [pay1_eq, cast_block]
  refine (Cert.Lib.Matmul.matmul_zero_ix2 dot_S512x2048_S2048x128_S512x128_1_0_0_1_n_n none rfl rfl
    av_l0 av_l1 av_r0 av_r1 _ _ p j).trans ?_
  unfold attnOut
  refine Finset.sum_congr rfl fun t _ => ?_
  rw [truncf_apply, subf_apply, mulf_apply, broadcast_apply, top_eq, pay4_eq, soft_apply, soft_apply, pay2_apply]
  simp only [pay3_apply]
  rfl

end Cert.KernelIdeal.Block

end
-- ==== Proof.KernelBlocks.lean ====
/-
  From the grid's blocks to the whole flattened array.

  The pallas_call runs over 32 × 4 points: point (bh, qi) reads query rows 512·qi … 512·qi + 511 of slab bh of the two
  query arrays and all 2048 rows of slab bh of the key, differential key and value arrays, and writes rows
  512·qi … 512·qi + 511 of slab bh of the output. The 128 output blocks tile the [32, 2048, 128] array, and every block is
  the restriction of one function of the five arrays: row (bh, s) attends within slab bh.
-/
import proofs.«156172_j9637906612422_1_alg».proof.Proof.Gen.KernelIdeal.Frame
import proofs.«156172_j9637906612422_1_alg».proof.Proof.BlockOut
import Idealize.ShloMosaic.Lib.Pipeline.Value

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.DiffAttn

variable (m : (ℓ : Loc nD τ sig) → Buf (Elt Ideal) ℓ) (ρ : Dev nD → PrngReg)

theorem hz : (![0, 0, 0] : Fin 3 → Nat) = fun _ => 0 := funext fun a => by fin_cases a <;> rfl

/-- The flattened output from the five flattened arrays (queries, differential queries, keys, differential keys,
    values): row (bh, s) attends over the 2048 rows of slab bh. -/
def flat (A0 A1 A2 A3 A4 : S32x2048x128.Idx → EReal) : S32x2048x128.Idx → EReal := fun i =>
  attnOut (fun d => A0 (ix3 (i 0) (i 1) d)) (fun d => A1 (ix3 (i 0) (i 1) d))
    (fun u d => A2 (ix3 (i 0) u d)) (fun u d => A3 (ix3 (i 0) u d)) (fun u d => A4 (ix3 (i 0) u d)) (i 2)

/-- One element of one point's block: if the point's input blocks are the rows of the arrays that output element `i`
    attends with, the stored payload at the element's place in the block is the flattened output at `i`. -/
theorem point_eq (A0 A1 A2 A3 A4 : S32x2048x128.Idx → EReal)
    (x0 x1 : Vec Ideal S1x512x128 .f32) (x2 x3 x4 : Vec Ideal S1x2048x128 .f32)
    (y : S1x512x128.Idx) (i : S32x2048x128.Idx)
    (h0 : ∀ d : Fin 128, x0 (ix3 (0 : Fin 1) (y 1) d) = A0 (ix3 (i 0) (i 1) d))
    (h1 : ∀ d : Fin 128, x1 (ix3 (0 : Fin 1) (y 1) d) = A1 (ix3 (i 0) (i 1) d))
    (h2 : ∀ (u : Fin 2048) (d : Fin 128), x2 (ix3 (0 : Fin 1) u d) = A2 (ix3 (i 0) u d))
    (h3 : ∀ (u : Fin 2048) (d : Fin 128), x3 (ix3 (0 : Fin 1) u d) = A3 (ix3 (i 0) u d))
    (h4 : ∀ (u : Fin 2048) (d : Fin 128), x4 (ix3 (0 : Fin 1) u d) = A4 (ix3 (i 0) u d))
    (hj : (i 2).val = (y 2).val) :
    k0_pay1 (k0_pay2 x4) (k0_pay3 x1 x3) (k0_pay4 x0 x2) (k0_pay5 x1 x3) (k0_pay6 (F := Ideal)) y
      = flat A0 A1 A2 A3 A4 i := by
  obtain ⟨u, p, j, rfl⟩ : ∃ (u : Fin 1) (p : Fin 512) (j : Fin 128), y = ix3 u p j := ⟨y 0, y 1, y 2, eq_ix3 y⟩
  have h0' : ∀ d : Fin 128, x0 (ix3 (0 : Fin 1) p d) = A0 (ix3 (i 0) (i 1) d) := h0
  have h1' : ∀ d : Fin 128, x1 (ix3 (0 : Fin 1) p d) = A1 (ix3 (i 0) (i 1) d) := h1
  have hj' : (i 2 : Fin 128) = j := Fin.ext hj
  rw [Block.out_apply]
  unfold flat
  rw [hj']
  simp only [h0', h1', h2, h3, h4]

/-- Window 0's block at a point, read at an element: the array as the region finds it, at block index × block size + the
    element's coordinate on each axis. -/
theorem iblk0_apply (c : Dev nD) (t : Fin cfg0.N) (x : S1x512x128.Idx) (k : S32x2048x128.Idx)
    (hk0 : (k 0).val = win0_0.index t (0 : Fin 3) * 1 + (x 0).val)
    (hk1 : (k 1).val = win0_0.index t (1 : Fin 3) * 512 + (x 1).val)
    (hk2 : (k 2).val = win0_0.index t (2 : Fin 3) * 128 + (x 2).val) :
    (iblk m c 0 t : Vec Ideal S1x512x128 .f32) x = (V m c main_v0 : S32x2048x128.Idx → EReal) k := by
  unfold iblk
  rw [View.read_apply]
  show V m c main_v0 _ = V m c main_v0 k
  refine congrArg (V m c main_v0) (funext fun a => Fin.ext ?_)
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 128 + 1 * (x 2).val = (k 2).val; omega

/-- Window 1's block at a point, read at an element: the array as the region finds it, at block index × block size + the
    element's coordinate on each axis. -/
theorem iblk1_apply (c : Dev nD) (t : Fin cfg0.N) (x : S1x512x128.Idx) (k : S32x2048x128.Idx)
    (hk0 : (k 0).val = win0_1.index t (0 : Fin 3) * 1 + (x 0).val)
    (hk1 : (k 1).val = win0_1.index t (1 : Fin 3) * 512 + (x 1).val)
    (hk2 : (k 2).val = win0_1.index t (2 : Fin 3) * 128 + (x 2).val) :
    (iblk m c 1 t : Vec Ideal S1x512x128 .f32) x = (V m c main_v1 : S32x2048x128.Idx → EReal) k := by
  unfold iblk
  rw [View.read_apply]
  show V m c main_v1 _ = V m c main_v1 k
  refine congrArg (V m c main_v1) (funext fun a => Fin.ext ?_)
  match a with
  | ⟨0, _⟩ => show win0_1.index t (0 : Fin 3) * 1 + 1 * (x 0).val = (k 0).val; omega
  | ⟨1, _⟩ => show win0_1.index t (1 : Fin 3) * 512 + 1 * (x 1).val = (k 1).val; omega
  | ⟨2, _⟩ => show win0_1.index t (2 : Fin 3) * 128 + 1 * (x 2).val = (k 2).val; omega

/-- Window 2's block at a point, read at an element: the array as the region finds it, at block index × block size + the
    element's coordinate on each axis. -/
theorem iblk2_apply (c : Dev nD) (t : Fin cfg0.N) (x : S1x2048x128.Idx) (k : S32x2048x128.Idx)
    (hk0 : (k 0).val = win0_2.index t (0 : Fin 3) * 1 + (x 0).val)
    (hk1 : (k 1).val = win0_2.index t (1 : Fin 3) * 2048 + (x 1).val)
    (hk2 : (k 2).val = win0_2.index t (2 : Fin 3) * 128 + (x 2).val) :
    (iblk m c 2 t : Vec Ideal S1x2048x128 .f32) x = (V m c main_v2 : S32x2048x128.Idx → EReal) k := by
  unfold iblk
  rw [View.read_apply]
  show V m c main_v2 _ = V m c main_v2 k
  refine congrArg (V m c main_v2) (funext fun a => Fin.ext ?_)
  match a with
  | ⟨0, _⟩ => show win0_2.index t (0 : Fin 3) * 1 + 1 * (x 0).val = (k 0).val; omega
  | ⟨1, _⟩ => show win0_2.index t (1 : Fin 3) * 2048 + 1 * (x 1).val = (k 1).val; omega
  | ⟨2, _⟩ => show win0_2.index t (2 : Fin 3) * 128 + 1 * (x 2).val = (k 2).val; omega

/-- Window 3's block at a point, read at an element: the array as the region finds it, at block index × block size + the
    element's coordinate on each axis. -/
theorem iblk3_apply (c : Dev nD) (t : Fin cfg0.N) (x : S1x2048x128.Idx) (k : S32x2048x128.Idx)
    (hk0 : (k 0).val = win0_3.index t (0 : Fin 3) * 1 + (x 0).val)
    (hk1 : (k 1).val = win0_3.index t (1 : Fin 3) * 2048 + (x 1).val)
    (hk2 : (k 2).val = win0_3.index t (2 : Fin 3) * 128 + (x 2).val) :
    (iblk m c 3 t : Vec Ideal S1x2048x128 .f32) x = (V m c main_v3 : S32x2048x128.Idx → EReal) k := by
  unfold iblk
  rw [View.read_apply]
  show V m c main_v3 _ = V m c main_v3 k
  refine congrArg (V m c main_v3) (funext fun a => Fin.ext ?_)
  match a with
  | ⟨0, _⟩ => show win0_3.index t (0 : Fin 3) * 1 + 1 * (x 0).val = (k 0).val; omega
  | ⟨1, _⟩ => show win0_3.index t (1 : Fin 3) * 2048 + 1 * (x 1).val = (k 1).val; omega
  | ⟨2, _⟩ => show win0_3.index t (2 : Fin 3) * 128 + 1 * (x 2).val = (k 2).val; omega

/-- Window 4's block at a point, read at an element: the array as the region finds it, at block index × block size + the
    element's coordinate on each axis. -/
theorem iblk4_apply (c : Dev nD) (t : Fin cfg0.N) (x : S1x2048x128.Idx) (k : S32x2048x128.Idx)
    (hk0 : (k 0).val = win0_4.index t (0 : Fin 3) * 1 + (x 0).val)
    (hk1 : (k 1).val = win0_4.index t (1 : Fin 3) * 2048 + (x 1).val)
    (hk2 : (k 2).val = win0_4.index t (2 : Fin 3) * 128 + (x 2).val) :
    (iblk m c 4 t : Vec Ideal S1x2048x128 .f32) x = (V m c main_v4 : S32x2048x128.Idx → EReal) k := by
  unfold iblk
  rw [View.read_apply]
  show V m c main_v4 _ = V m c main_v4 k
  refine congrArg (V m c main_v4) (funext fun a => Fin.ext ?_)
  match a with
  | ⟨0, _⟩ => show win0_4.index t (0 : Fin 3) * 1 + 1 * (x 0).val = (k 0).val; omega
  | ⟨1, _⟩ => show win0_4.index t (1 : Fin 3) * 2048 + 1 * (x 1).val = (k 1).val; omega
  | ⟨2, _⟩ => show win0_4.index t (2 : Fin 3) * 128 + 1 * (x 2).val = (k 2).val; omega

/-- The printed index maps, decided over the grid: the query windows move with the output window, the key and value
    windows follow its slab only, and no window moves along the features. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (2 : Fin 3) = 0 :=
  (by decide +kernel : ∀ t : Fin grid0.N, _)

/-- Every (slab, query tile) pair is some point's output block. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-- What point `t` writes back is block `t` of the flattened output of the arrays as the region finds them. -/
theorem flushed_eq (c : Dev nD) (t : Fin cfg0.N) :
    (dats m 0 c).flushed 5 t = ((cfg0.win 5).blk t).view.read (Elt Ideal)
      (flat (V m c main_v0) (V m c main_v1) (V m c main_v2) (V m c main_v3) (V m c main_v4)) := by
  show (cfg0.win 5).cut (grid0.coords t) ((dats m 0 c).after 5 t) = _
  rw [after0_5]
  unfold out0_5
  rw [View.canon_unit_zero hz]
  simp only [View.ld_unit_zero (S := S1x512x128) hz, View.ld_unit_zero (S := S1x2048x128) hz]
  obtain ⟨a00, a01, a02, a10, a11, a12, a20, a21, a22, a30, a31, a32, a40, a41, a42, a52⟩ := idx_facts t
  funext y
  rw [View.read_apply]
  have e0 : ((((cfg0.win 5).blk t).view.emb y) 0).val = win0_5.index t (0 : Fin 3) * 1 + 1 * (y 0).val := rfl
  have e1 : ((((cfg0.win 5).blk t).view.emb y) 1).val = win0_5.index t (1 : Fin 3) * 512 + 1 * (y 1).val := rfl
  have e2 : ((((cfg0.win 5).blk t).view.emb y) 2).val = win0_5.index t (2 : Fin 3) * 128 + 1 * (y 2).val := rfl
  have y0 : (y 0).val < 1 := (y 0).isLt
  refine point_eq _ _ _ _ _ (iblk m c 0 t) (iblk m c 1 t) (iblk m c 2 t) (iblk m c 3 t) (iblk m c 4 t)
    ((cfg0.win 5).xinj (grid0.coords t) y) (((cfg0.win 5).blk t).view.emb y) ?_ ?_ ?_ ?_ ?_ ?_
  · intro d
    refine iblk0_apply m c t _ _ ?_ ?_ ?_
    · show ((((cfg0.win 5).blk t).view.emb y) 0).val = win0_0.index t (0 : Fin 3) * 1 + 0; omega
    · show ((((cfg0.win 5).blk t).view.emb y) 1).val = win0_0.index t (1 : Fin 3) * 512 + (y 1).val; omega
    · show d.val = win0_0.index t (2 : Fin 3) * 128 + d.val; omega
  · intro d
    refine iblk1_apply m c t _ _ ?_ ?_ ?_
    · show ((((cfg0.win 5).blk t).view.emb y) 0).val = win0_1.index t (0 : Fin 3) * 1 + 0; omega
    · show ((((cfg0.win 5).blk t).view.emb y) 1).val = win0_1.index t (1 : Fin 3) * 512 + (y 1).val; omega
    · show d.val = win0_1.index t (2 : Fin 3) * 128 + d.val; omega
  · intro u d
    refine iblk2_apply m c t _ _ ?_ ?_ ?_
    · show ((((cfg0.win 5).blk t).view.emb y) 0).val = win0_2.index t (0 : Fin 3) * 1 + 0; omega
    · show u.val = win0_2.index t (1 : Fin 3) * 2048 + u.val; omega
    · show d.val = win0_2.index t (2 : Fin 3) * 128 + d.val; omega
  · intro u d
    refine iblk3_apply m c t _ _ ?_ ?_ ?_
    · show ((((cfg0.win 5).blk t).view.emb y) 0).val = win0_3.index t (0 : Fin 3) * 1 + 0; omega
    · show u.val = win0_3.index t (1 : Fin 3) * 2048 + u.val; omega
    · show d.val = win0_3.index t (2 : Fin 3) * 128 + d.val; omega
  · intro u d
    refine iblk4_apply m c t _ _ ?_ ?_ ?_
    · show ((((cfg0.win 5).blk t).view.emb y) 0).val = win0_4.index t (0 : Fin 3) * 1 + 0; omega
    · show u.val = win0_4.index t (1 : Fin 3) * 2048 + u.val; omega
    · show d.val = win0_4.index t (2 : Fin 3) * 128 + d.val; omega
  · show ((((cfg0.win 5).blk t).view.emb y) 2).val = (y 2).val; omega

/-- An index of the output array is in point `t`'s block iff each coordinate is in the block's range on its axis. -/
theorem mem_blk (t : Fin cfg0.N) (i : S32x2048x128.Idx) :
    i ∈ ((cfg0.win 5).blk t).view.set ↔ ∀ a : Fin 3, win0_5.index t a * S1x512x128.size a ≤ (i a).val
      ∧ (i a).val < win0_5.index t a * S1x512x128.size a + S1x512x128.size a := by
  show i ∈ ((View.whole main_v5).slice (win0_5.rect t)).set ↔ _
  rw [View.set_slice_whole, Rect.mem_set_unit]
  exact Iff.rfl

/-- The output blocks tile the array: row s of slab bh is in the block of point (bh, s / 512). -/
theorem cover (i : S32x2048x128.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

/-- The output array after the region: the flattened output of the five arrays as the region finds them. -/
theorem final (c : Dev nD) :
    (dats m 0 c).arrAt 5 cfg0.N = flat (V m c main_v0) (V m c main_v1) (V m c main_v2) (V m c main_v3) (V m c main_v4) :=
  (dats m 0 c).arrAt_eq_of_cover 5 _ (fun t _ => flushed_eq m c t) cover

end Cert.KernelIdeal.Hand

end
-- ==== Proof.KernelRun.lean ====
/-
  The whole kernel program: flatten, attend, unflatten.

  Before the pallas_call the host flattens [2, 16, 2048, 128] arrays to [32, 2048, 128] (slab 16·b + h is batch b, head h);
  after it the host unflattens the output. Row-major positions are kept, so the flattened output read back at
  (b, h, s, j) is the differential-attention output of query row (b, h, s) over the keys and values of (b, h).
-/
import proofs.«156172_j9637906612422_1_alg».proof.Proof.Gen.KernelIdeal.Frame
import proofs.«156172_j9637906612422_1_alg».proof.Proof.KernelBlocks
import Idealize.ShloMosaic.Lib.Pipeline.Value
import Idealize.ShloMosaic.Lib.StableHlo.Run

noncomputable section

open scoped BigOperators

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.DiffAttn

variable (m : (ℓ : Loc nD τ sig) → Buf (Elt Ideal) ℓ) (ρ : Dev nD → PrngReg)

/-- The slab of batch b and head h. -/
abbrev slab (b : Fin 2) (h : Fin 16) : Fin 32 := ⟨16 * b.val + h.val, by omega⟩

/-- A flattened array reads slab 16·b + h, row s, feature d at (b, h, s, d). -/
theorem flatten_apply {α : Type} (x : S2x16x2048x128.Idx → α) (b : Fin 2) (h : Fin 16) (s : Fin 2048) (d : Fin 128) :
    shapeCast S32x2048x128 x shapeCasts_S2x16x2048x128_S32x2048x128 (ix3 (slab b h) s d) = x (ix4 b h s d) :=
  shapeCast_apply x _ _ _ (by
    rw [Shape.rowMajor_val_four, Shape.rowMajor_val_three]
    show ((b.val * 16 + h.val) * 2048 + s.val) * 128 + d.val = ((16 * b.val + h.val) * 2048 + s.val) * 128 + d.val
    omega)

/-- An unflattened array reads (b, h, s, d) at slab 16·b + h, row s, feature d. -/
theorem unflatten_apply {α : Type} (z : S32x2048x128.Idx → α) (b : Fin 2) (h : Fin 16) (s : Fin 2048) (d : Fin 128) :
    shapeCast S2x16x2048x128 z shapeCasts_S32x2048x128_S2x16x2048x128 (ix4 b h s d) = z (ix3 (slab b h) s d) :=
  shapeCast_apply z _ _ _ (by
    rw [Shape.rowMajor_val_four, Shape.rowMajor_val_three]
    show ((16 * b.val + h.val) * 2048 + s.val) * 128 + d.val = ((b.val * 16 + h.val) * 2048 + s.val) * 128 + d.val
    omega)

/-! ## The arrays the region finds: the arguments, flattened -/

theorem V_v0 (c : Dev nD) : (V m c main_v0 : S32x2048x128.Idx → EReal)
    = shapeCast S32x2048x128 (m ((c : Thread nD τ).loc main_arg0)) shapeCasts_S2x16x2048x128_S32x2048x128 := by
  show StableHlo.after hostOps0 (fun b => m (c, b)) (Proc.devRef .tc main_v0) = _
  after_results
  rfl
theorem V_v1 (c : Dev nD) : (V m c main_v1 : S32x2048x128.Idx → EReal)
    = shapeCast S32x2048x128 (m ((c : Thread nD τ).loc main_arg3)) shapeCasts_S2x16x2048x128_S32x2048x128 := by
  show StableHlo.after hostOps0 (fun b => m (c, b)) (Proc.devRef .tc main_v1) = _
  after_results
  rfl
theorem V_v2 (c : Dev nD) : (V m c main_v2 : S32x2048x128.Idx → EReal)
    = shapeCast S32x2048x128 (m ((c : Thread nD τ).loc main_arg1)) shapeCasts_S2x16x2048x128_S32x2048x128 := by
  show StableHlo.after hostOps0 (fun b => m (c, b)) (Proc.devRef .tc main_v2) = _
  after_results
  rfl
theorem V_v3 (c : Dev nD) : (V m c main_v3 : S32x2048x128.Idx → EReal)
    = shapeCast S32x2048x128 (m ((c : Thread nD τ).loc main_arg4)) shapeCasts_S2x16x2048x128_S32x2048x128 := by
  show StableHlo.after hostOps0 (fun b => m (c, b)) (Proc.devRef .tc main_v3) = _
  after_results
  rfl
theorem V_v4 (c : Dev nD) : (V m c main_v4 : S32x2048x128.Idx → EReal)
    = shapeCast S32x2048x128 (m ((c : Thread nD τ).loc main_arg2)) shapeCasts_S2x16x2048x128_S32x2048x128 := by
  show StableHlo.after hostOps0 (fun b => m (c, b)) (Proc.devRef .tc main_v4) = _
  after_results
  rfl

/-! ## The result: the region's output, unflattened -/

theorem tail_v6 (c : Dev nD) :
    Pipeline.afterTail₀ cfgs (dats m) 0 (V0 m) [hostOps1] c main_v6
      = shapeCast S2x16x2048x128 ((dats m 0 c).arrAt 5 cfg0.N) shapeCasts_S32x2048x128_S2x16x2048x128 := by
  unfold Pipeline.afterTail₀
  show StableHlo.after hostOps1 _ (Proc.devRef .tc main_v6) = _
  after_results
  rw [Pipeline.withArrays_arr spec0 launch0.win.arr_inj c _ _ 5]
  rfl

/-- The flattened output of the flattened arguments, unflattened, is the specification of the arguments. -/
theorem unflatten_flat (Q K V dQ dK : S2x16x2048x128.Idx → EReal) :
    shapeCast S2x16x2048x128
        (flat (shapeCast S32x2048x128 Q shapeCasts_S2x16x2048x128_S32x2048x128)
          (shapeCast S32x2048x128 dQ shapeCasts_S2x16x2048x128_S32x2048x128)
          (shapeCast S32x2048x128 K shapeCasts_S2x16x2048x128_S32x2048x128)
          (shapeCast S32x2048x128 dK shapeCasts_S2x16x2048x128_S32x2048x128)
          (shapeCast S32x2048x128 V shapeCasts_S2x16x2048x128_S32x2048x128))
        shapeCasts_S32x2048x128_S2x16x2048x128
      = result Q K V dQ dK := by
  funext i
  obtain ⟨b, h, s, j, rfl⟩ : ∃ (b : Fin 2) (h : Fin 16) (s : Fin 2048) (j : Fin 128), i = ix4 b h s j :=
    ⟨i 0, i 1, i 2, i 3, eq_ix4 i⟩
  rw [unflatten_apply]
  show attnOut (fun d => shapeCast S32x2048x128 Q shapeCasts_S2x16x2048x128_S32x2048x128 (ix3 (slab b h) s d))
      (fun d => shapeCast S32x2048x128 dQ shapeCasts_S2x16x2048x128_S32x2048x128 (ix3 (slab b h) s d))
      (fun u d => shapeCast S32x2048x128 K shapeCasts_S2x16x2048x128_S32x2048x128 (ix3 (slab b h) u d))
      (fun u d => shapeCast S32x2048x128 dK shapeCasts_S2x16x2048x128_S32x2048x128 (ix3 (slab b h) u d))
      (fun u d => shapeCast S32x2048x128 V shapeCasts_S2x16x2048x128_S32x2048x128 (ix3 (slab b h) u d)) j
    = attnOut (fun d => Q (ix4 b h s d)) (fun d => dQ (ix4 b h s d)) (fun u d => K (ix4 b h u d))
      (fun u d => dK (ix4 b h u d)) (fun u d => V (ix4 b h u d)) j
  simp only [flatten_apply]

/-- What @main's result holds after the run. -/
theorem result_eq (c : Dev nD) :
    Pipeline.afterTail₀ cfgs (dats m) 0 (V0 m) [hostOps1] c main_v6
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_v6, final, V_v0, V_v1, V_v2, V_v3, V_v4]
  exact unflatten_flat _ _ _ _ _

/-- The kernel program's run, read: the result at the specification of the arguments, the arguments unchanged. -/
theorem run : θ_run defs (onTc (τ := τ) (main (F := Ideal))) ⟨m, fun _ => 0, ρ⟩ (fun r => ∀ c : Dev nD,
      r.2.mem ((c.tc : Thread nD τ).loc main_v6)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefValue.lean ====
/-
  The reference read at an index.

  The reference forms, for every batch b and head h, the [2048, 2048] scores of all query rows against all key rows, takes
  each row's softmax (maximum from the floor kept as a trailing unit axis and spread back, exponentials, their row sums
  spread the same way, the quotient), does the same with the differential queries and keys, combines the two softmaxes
  and multiplies by the values. At (b, h, s, j) this is the differential-attention output of query row (b, h, s) at feature j.
-/
import proofs.«156172_j9637906612422_1_alg».proof.Proof.Gen.ReferenceIdeal.Read
import proofs.«156172_j9637906612422_1_alg».proof.Proof.Spec
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen Cert.ReferenceIdeal.Read
open Cert.DiffAttn

/-! ## Where each operation reads its operands -/

/-- A score's left factor k sits in query row (b, h, s), its right factor in key row (b, h, t); the same for the
    differential scores. -/
theorem lidx_qk (b : Fin 2) (h : Fin 16) (s t : Fin 2048) (k : Fin 128) : lidx_main_v0 (ix4 b h s t) k = ix4 b h s k :=
  funext fun a => Fin.ext (by match a with | ⟨0, _⟩ => rfl | ⟨1, _⟩ => rfl | ⟨2, _⟩ => rfl | ⟨3, _⟩ => rfl)
theorem ridx_qk (b : Fin 2) (h : Fin 16) (s t : Fin 2048) (k : Fin 128) : ridx_main_v0 (ix4 b h s t) k = ix4 b h t k :=
  funext fun a => Fin.ext (by match a with | ⟨0, _⟩ => rfl | ⟨1, _⟩ => rfl | ⟨2, _⟩ => rfl | ⟨3, _⟩ => rfl)
theorem lidx_dqk (b : Fin 2) (h : Fin 16) (s t : Fin 2048) (k : Fin 128) : lidx_main_v3 (ix4 b h s t) k = ix4 b h s k :=
  funext fun a => Fin.ext (by match a with | ⟨0, _⟩ => rfl | ⟨1, _⟩ => rfl | ⟨2, _⟩ => rfl | ⟨3, _⟩ => rfl)
theorem ridx_dqk (b : Fin 2) (h : Fin 16) (s t : Fin 2048) (k : Fin 128) : ridx_main_v3 (ix4 b h s t) k = ix4 b h t k :=
  funext fun a => Fin.ext (by match a with | ⟨0, _⟩ => rfl | ⟨1, _⟩ => rfl | ⟨2, _⟩ => rfl | ⟨3, _⟩ => rfl)

/-- Dropping the key axis of the scores. -/
theorem red_rows : S2x16x2048x2048.Reduces [3] S2x16x2048 := by decide

/-- The entry a row reduction inserts key t at: (b, h, s, t). -/
theorem lift_rows (b : Fin 2) (h : Fin 16) (s t : Fin 2048) : red_rows.lift (ix3 b h s) t = ix4 b h s t :=
  funext fun a => Fin.ext (by match a with | ⟨0, _⟩ => rfl | ⟨1, _⟩ => rfl | ⟨2, _⟩ => rfl | ⟨3, _⟩ => rfl)

/-- A per-row value kept with a trailing unit axis and spread over the keys is read, at (b, h, s, t), at row (b, h, s):
    the two row tops and the two row sums. -/
theorem col_top_qk (b : Fin 2) (h : Fin 16) (s t : Fin 2048) : idx_main_v9 (idx_main_v10 (ix4 b h s t)) = ix3 b h s :=
  funext fun a => Fin.ext (by match a with | ⟨0, _⟩ => rfl | ⟨1, _⟩ => rfl | ⟨2, _⟩ => rfl)
theorem col_sum_qk (b : Fin 2) (h : Fin 16) (s t : Fin 2048) : idx_main_v14 (idx_main_v15 (ix4 b h s t)) = ix3 b h s :=
  funext fun a => Fin.ext (by match a with | ⟨0, _⟩ => rfl | ⟨1, _⟩ => rfl | ⟨2, _⟩ => rfl)
theorem col_top_dqk (b : Fin 2) (h : Fin 16) (s t : Fin 2048) : idx_main_v20 (idx_main_v21 (ix4 b h s t)) = ix3 b h s :=
  funext fun a => Fin.ext (by match a with | ⟨0, _⟩ => rfl | ⟨1, _⟩ => rfl | ⟨2, _⟩ => rfl)
theorem col_sum_dqk (b : Fin 2) (h : Fin 16) (s t : Fin 2048) : idx_main_v25 (idx_main_v26 (ix4 b h s t)) = ix3 b h s :=
  funext fun a => Fin.ext (by match a with | ⟨0, _⟩ => rfl | ⟨1, _⟩ => rfl | ⟨2, _⟩ => rfl)

/-- Term u of a row sum sits at (b, h, s, u). -/
theorem sum_idx_qk (b : Fin 2) (h : Fin 16) (s u : Fin 2048) : idx_main_v13 (ix3 b h s) u = ix4 b h s u :=
  funext fun a => Fin.ext (by match a with | ⟨0, _⟩ => rfl | ⟨1, _⟩ => rfl | ⟨2, _⟩ => rfl | ⟨3, _⟩ => rfl)
theorem sum_idx_dqk (b : Fin 2) (h : Fin 16) (s u : Fin 2048) : idx_main_v24 (ix3 b h s) u = ix4 b h s u :=
  funext fun a => Fin.ext (by match a with | ⟨0, _⟩ => rfl | ⟨1, _⟩ => rfl | ⟨2, _⟩ => rfl | ⟨3, _⟩ => rfl)

/-- In the last product the left factor t is the combined weight of key t, -/
theorem lidx_av (b : Fin 2) (h : Fin 16) (s : Fin 2048) (j : Fin 128) (t : Fin 2048) : lidx_main_v31 (ix4 b h s j) t = ix4 b h s t :=
  funext fun a => Fin.ext (by match a with | ⟨0, _⟩ => rfl | ⟨1, _⟩ => rfl | ⟨2, _⟩ => rfl | ⟨3, _⟩ => rfl)
/-- and the right factor is feature j of value row t. -/
theorem ridx_av (b : Fin 2) (h : Fin 16) (s : Fin 2048) (j : Fin 128) (t : Fin 2048) : ridx_main_v31 (ix4 b h s j) t = ix4 b h t j :=
  funext fun a => Fin.ext (by match a with | ⟨0, _⟩ => rfl | ⟨1, _⟩ => rfl | ⟨2, _⟩ => rfl | ⟨3, _⟩ => rfl)

/-! ## The plain softmax -/

/-- A score of the plain product: entry (b, h, s, t). -/
theorem score_qk (x y : (⟨S2x16x2048x128, .f32⟩ : BufTy).Contents (Elt Ideal)) (b : Fin 2) (h : Fin 16) (s t : Fin 2048) :
    val_main_v2 (F := Ideal) x y (ix4 b h s t)
      = score (fun d => x (ix4 b h s d)) (fun d => y (ix4 b h t d)) := by
  rw [val_main_v2_apply, val_main_v0_apply, val_main_v1_apply, val_main_cst_apply, Ideal.mulf_def, Ideal.ofBits_def]
  unfold score
  refine congrArg (· * scale) (Finset.sum_congr rfl fun k _ => ?_)
  exact congrArg₂ (· * ·) (congrArg x (lidx_qk b h s t k)) (congrArg y (ridx_qk b h s t k))

/-- A row's maximum of the plain scores, from the floor. -/
theorem rowmax_qk (x y : (⟨S2x16x2048x128, .f32⟩ : BufTy).Contents (Elt Ideal)) (b : Fin 2) (h : Fin 16) (s : Fin 2048) :
    val_main_v6 (F := Ideal) x y (ix3 b h s)
      = (Finset.univ : Finset (Fin 2048)).fold max floorVal (fun t => val_main_v2 (F := Ideal) x y (ix4 b h s t)) := by
  unfold val_main_v6
  refine (Host.reduce_eq_fold_single (FloatOps.maximumf (F := Ideal) (φ := .f32)) (val_main_v2 (F := Ideal) x y) (val_main_cst_1 (F := Ideal))
    reducesTo_S2x16x2048x2048_S2x16x2048_d3 red_rows h_S_ (ix3 b h s)).trans ?_
  exact congrArg (Finset.fold max floorVal · (Finset.univ : Finset (Fin 2048)))
    (funext fun t => congrArg (val_main_v2 (F := Ideal) x y) (lift_rows b h s t))

/-- The value subtracted from a row of plain scores. -/
theorem top_qk (x y : (⟨S2x16x2048x128, .f32⟩ : BufTy).Contents (Elt Ideal)) (b : Fin 2) (h : Fin 16) (s : Fin 2048) :
    val_main_v8 (F := Ideal) x y (ix3 b h s)
      = rowTop (fun t => score (fun d => x (ix4 b h s d)) (fun d => y (ix4 b h t d))) := by
  rw [val_main_v8_apply, val_main_v7_apply, val_main_cst_2_apply, rowmax_qk, Ideal.maximumf_def, Ideal.ofBits_def]
  simp only [score_qk]
  rfl

/-- A shifted exponential of the plain scores. -/
theorem exp_qk (x y : (⟨S2x16x2048x128, .f32⟩ : BufTy).Contents (Elt Ideal)) (b : Fin 2) (h : Fin 16) (s t : Fin 2048) :
    val_main_v12 (F := Ideal) x y (ix4 b h s t)
      = Ideal.exp (score (fun d => x (ix4 b h s d)) (fun d => y (ix4 b h t d))
          - rowTop (fun u => score (fun d => x (ix4 b h s d)) (fun d => y (ix4 b h u d)))) := by
  rw [val_main_v12_apply, val_main_v11_apply, val_main_v10_apply, val_main_v9_apply, col_top_qk b h s t, top_qk, score_qk,
    Ideal.hostUnary_exp_def, Ideal.subf_def]

/-- The softmax of the plain scores: entry (b, h, s, t). -/
theorem soft_qk (x y : (⟨S2x16x2048x128, .f32⟩ : BufTy).Contents (Elt Ideal)) (b : Fin 2) (h : Fin 16) (s t : Fin 2048) :
    val_main_v16 (F := Ideal) x y (ix4 b h s t)
      = soft (fun u => score (fun d => x (ix4 b h s d)) (fun d => y (ix4 b h u d))) t := by
  rw [val_main_v16_apply, val_main_v15_apply, val_main_v14_apply, col_sum_qk b h s t, val_main_v13_apply, val_main_cst_3_apply, exp_qk,
    Ideal.hostDivf_def, Ideal.ofBits_def, Ideal.ofBits_zero_f32, zero_add]
  unfold soft
  refine congrArg (Ideal.div _) (Finset.sum_congr rfl fun u _ => ?_)
  rw [sum_idx_qk b h s u, exp_qk]

/-! ## The differential softmax -/

/-- A score of the differential product: entry (b, h, s, t). -/
theorem score_dqk (x y : (⟨S2x16x2048x128, .f32⟩ : BufTy).Contents (Elt Ideal)) (b : Fin 2) (h : Fin 16) (s t : Fin 2048) :
    val_main_v5 (F := Ideal) x y (ix4 b h s t)
      = score (fun d => x (ix4 b h s d)) (fun d => y (ix4 b h t d)) := by
  rw [val_main_v5_apply, val_main_v3_apply, val_main_v4_apply, val_main_cst_0_apply, Ideal.mulf_def, Ideal.ofBits_def]
  unfold score
  refine congrArg (· * scale) (Finset.sum_congr rfl fun k _ => ?_)
  exact congrArg₂ (· * ·) (congrArg x (lidx_dqk b h s t k)) (congrArg y (ridx_dqk b h s t k))

/-- A row's maximum of the differential scores, from the floor. -/
theorem rowmax_dqk (x y : (⟨S2x16x2048x128, .f32⟩ : BufTy).Contents (Elt Ideal)) (b : Fin 2) (h : Fin 16) (s : Fin 2048) :
    val_main_v17 (F := Ideal) x y (ix3 b h s)
      = (Finset.univ : Finset (Fin 2048)).fold max floorVal (fun t => val_main_v5 (F := Ideal) x y (ix4 b h s t)) := by
  unfold val_main_v17
  refine (Host.reduce_eq_fold_single (FloatOps.maximumf (F := Ideal) (φ := .f32)) (val_main_v5 (F := Ideal) x y) (val_main_cst_4 (F := Ideal))
    reducesTo_S2x16x2048x2048_S2x16x2048_d3 red_rows h_S_ (ix3 b h s)).trans ?_
  exact congrArg (Finset.fold max floorVal · (Finset.univ : Finset (Fin 2048)))
    (funext fun t => congrArg (val_main_v5 (F := Ideal) x y) (lift_rows b h s t))

/-- The value subtracted from a row of differential scores. -/
theorem top_dqk (x y : (⟨S2x16x2048x128, .f32⟩ : BufTy).Contents (Elt Ideal)) (b : Fin 2) (h : Fin 16) (s : Fin 2048) :
    val_main_v19 (F := Ideal) x y (ix3 b h s)
      = rowTop (fun t => score (fun d => x (ix4 b h s d)) (fun d => y (ix4 b h t d))) := by
  rw [val_main_v19_apply, val_main_v18_apply, val_main_cst_5_apply, rowmax_dqk, Ideal.maximumf_def, Ideal.ofBits_def]
  simp only [score_dqk]
  rfl

/-- A shifted exponential of the differential scores. -/
theorem exp_dqk (x y : (⟨S2x16x2048x128, .f32⟩ : BufTy).Contents (Elt Ideal)) (b : Fin 2) (h : Fin 16) (s t : Fin 2048) :
    val_main_v23 (F := Ideal) x y (ix4 b h s t)
      = Ideal.exp (score (fun d => x (ix4 b h s d)) (fun d => y (ix4 b h t d))
          - rowTop (fun u => score (fun d => x (ix4 b h s d)) (fun d => y (ix4 b h u d)))) := by
  rw [val_main_v23_apply, val_main_v22_apply, val_main_v21_apply, val_main_v20_apply, col_top_dqk b h s t, top_dqk, score_dqk,
    Ideal.hostUnary_exp_def, Ideal.subf_def]

/-- The softmax of the differential scores: entry (b, h, s, t). -/
theorem soft_dqk (x y : (⟨S2x16x2048x128, .f32⟩ : BufTy).Contents (Elt Ideal)) (b : Fin 2) (h : Fin 16) (s t : Fin 2048) :
    val_main_v27 (F := Ideal) x y (ix4 b h s t)
      = soft (fun u => score (fun d => x (ix4 b h s d)) (fun d => y (ix4 b h u d))) t := by
  rw [val_main_v27_apply, val_main_v26_apply, val_main_v25_apply, col_sum_dqk b h s t, val_main_v24_apply, val_main_cst_6_apply, exp_dqk,
    Ideal.hostDivf_def, Ideal.ofBits_def, Ideal.ofBits_zero_f32, zero_add]
  unfold soft
  refine congrArg (Ideal.div _) (Finset.sum_congr rfl fun u _ => ?_)
  rw [sum_idx_dqk b h s u, exp_dqk]

/-! ## The result -/

/-- The reference's result at (b, h, s, j). -/
theorem out_apply (x0 x1 x2 x3 x4 : (⟨S2x16x2048x128, .f32⟩ : BufTy).Contents (Elt Ideal)) (b : Fin 2) (h : Fin 16) (s : Fin 2048) (j : Fin 128) :
    val_main_v31 (F := Ideal) x0 x1 x2 x3 x4 (ix4 b h s j)
      = attnOut (fun d => x0 (ix4 b h s d)) (fun d => x3 (ix4 b h s d))
          (fun t d => x1 (ix4 b h t d)) (fun t d => x4 (ix4 b h t d)) (fun t d => x2 (ix4 b h t d)) j := by
  rw [val_main_v31_apply]
  unfold attnOut
  refine Finset.sum_congr rfl fun t _ => ?_
  rw [lidx_av, ridx_av, val_main_v30_apply, soft_qk, val_main_v29_apply, val_main_v28_apply, val_main_cst_7_apply, soft_dqk,
    Ideal.subf_def, Ideal.mulf_def, Ideal.ofBits_def]

/-- The reference's result is the specification of the five argument arrays. -/
theorem ref_eq (x0 x1 x2 x3 x4 : (⟨S2x16x2048x128, .f32⟩ : BufTy).Contents (Elt Ideal)) :
    val_main_v31 (F := Ideal) x0 x1 x2 x3 x4 = result x0 x1 x2 x3 x4 := by
  funext i
  obtain ⟨b, h, s, j, rfl⟩ : ∃ (b : Fin 2) (h : Fin 16) (s : Fin 2048) (j : Fin 128), i = ix4 b h s j :=
    ⟨i 0, i 1, i 2, i 3, eq_ix4 i⟩
  rw [out_apply]
  rfl

end Cert.ReferenceIdeal.RefValue

end
-- ==== Proof.lean ====
/-
  Differential attention: a tiled kernel against the plain formula.

  The kernel flattens batch and head into 32 slabs and, for each slab and each tile of 512 query rows, computes
  softmax(q·kᵀ·c) − λ·softmax(dq·dkᵀ·c) against all 2048 keys of the slab and multiplies by the slab's values; the
  reference computes the same expression for all rows at once. On the extended reals the two are one function of the
  five arguments, operation for operation — the same scale word, the same floor under the row maximum, the same order of
  subtraction, exponential, row sum and quotient — so no algebraic law and no finiteness of the inputs is needed: each
  side is read at an index and both readings are the one specification `Cert.DiffAttn.result`.
  The frames of the two kernel programs are their generated frame runs; the reference's frame is its run with the result
  dropped; the kernel's idealization rewrote nothing.
-/
import proofs.«156172_j9637906612422_1_alg».proof.Defs
import proofs.«156172_j9637906612422_1_alg».proof.Proof.Gen.Kernel
import proofs.«156172_j9637906612422_1_alg».proof.Proof.Gen.Kernel.Skeleton
import proofs.«156172_j9637906612422_1_alg».proof.Proof.Gen.Kernel.Launch
import proofs.«156172_j9637906612422_1_alg».proof.Proof.Gen.Kernel.Points
import proofs.«156172_j9637906612422_1_alg».proof.Proof.Gen.Kernel.Frame
import proofs.«156172_j9637906612422_1_alg».proof.Proof.Gen.KernelIdeal
import proofs.«156172_j9637906612422_1_alg».proof.Proof.Gen.KernelIdeal.Skeleton
import proofs.«156172_j9637906612422_1_alg».proof.Proof.Gen.KernelIdeal.Launch
import proofs.«156172_j9637906612422_1_alg».proof.Proof.Gen.KernelIdeal.Points
import proofs.«156172_j9637906612422_1_alg».proof.Proof.Gen.KernelIdeal.Frame
import proofs.«156172_j9637906612422_1_alg».proof.Proof.Gen.ReferenceIdeal
import proofs.«156172_j9637906612422_1_alg».proof.Proof.Gen.Pre_finite_inputs
import proofs.«156172_j9637906612422_1_alg».proof.Proof.Gen.ReferenceIdeal.Run
import proofs.«156172_j9637906612422_1_alg».proof.Proof.Gen.ReferenceIdeal.Read
import proofs.«156172_j9637906612422_1_alg».proof.Proof.KernelRun
import proofs.«156172_j9637906612422_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the specification of the five arguments: the kernel program by its
    blocks (every output block is the specification restricted to the block's rows), the reference by reading its
    operations at an index. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
